-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x1024 : Shape := ⟨2, ![2048, 1024]⟩
abbrev S1x2048 : Shape := ⟨2, ![1, 2048]⟩
abbrev S2048x2048 : Shape := ⟨2, ![2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .f32 = 32 ∨ (Rect.block (s := S8192x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibBlockSum.lean ====
/-
  Sums over an index range cut into consecutive blocks, in any additive commutative monoid — in particular the
  extended reals, where addition is commutative and associative although it does not cancel.

  * `sum_by_blocks`: a sum over `n * b` indices is the sum over the `n` blocks of the sums over each block's `b`
    indices (the index `j + b * i` is entry `j` of block `i`).
  * `sum_three_parts`: a sum over `a + b + c` indices is the sum of its three consecutive parts.
  * `running_total`: an accumulator started at `z` that adds `g k` at step `k` holds `z + ∑ k < n, g k` after
    `n` steps.
-/
import Mathlib.Algebra.BigOperators.Fin
import Mathlib.Algebra.BigOperators.Group.Finset.Basic

namespace BlockSum

open scoped BigOperators

variable {M : Type*} [AddCommMonoid M]

/-- A sum over `n * b` consecutive indices, block by block: index `j + b * i` is entry `j` of block `i`. -/
theorem sum_by_blocks (n b : ℕ) (f : Fin (n * b) → M) :
    ∑ k, f k = ∑ i : Fin n, ∑ j : Fin b, f (finProdFinEquiv (i, j)) := by
  rw [← Fintype.sum_prod_type']
  exact (Equiv.sum_comp finProdFinEquiv f).symm

/-- The position of entry `j` of block `i`. -/
theorem block_entry_val (n b : ℕ) (i : Fin n) (j : Fin b) :
    (finProdFinEquiv (i, j) : Fin (n * b)).val = j.val + b * i.val := rfl

/-- A sum over `a + b + c` consecutive indices is the sum of its three consecutive parts. -/
theorem sum_three_parts (a b c : ℕ) (f : Fin (a + b + c) → M) :
    ∑ k, f k = ∑ i : Fin a, f (Fin.castAdd c (Fin.castAdd b i))
      + ∑ i : Fin b, f (Fin.castAdd c (Fin.natAdd a i)) + ∑ i : Fin c, f (Fin.natAdd (a + b) i) := by
  rw [Fin.sum_univ_add, Fin.sum_univ_add]

/-- An accumulator started at `z` that adds `g k` at step `k` holds `z` plus the first `n` terms after `n` steps. -/
theorem running_total (z : M) (g : ℕ → M) (acc : ℕ → M) (h0 : acc 0 = z) (hs : ∀ k, acc (k + 1) = acc k + g k) (n : ℕ) :
    acc n = z + ∑ k ∈ Finset.range n, g k := by
  induction n with
  | zero => simp [h0]
  | succ n ih => rw [hs, ih, Finset.sum_range_succ, add_assoc]

end BlockSum
-- ==== Proof.DenseLayer.lean ====
/-
  A dense layer with binarised weights, entry by entry, on the extended reals:

      y[p, q] = (Σ_{k < 4096} x[p, k] · sign(w[q, k])) + bias[q],      p < 8192, q < 4096,

  the product of the activations with the TRANSPOSE of the sign matrix, plus the bias along the rows.

  The contraction over the 4096 input features may be taken in four consecutive blocks of 1024 features, added
  one after the other onto zero: addition of extended reals is commutative and associative (it does not cancel, and
  nothing here cancels), so the regrouping holds for infinite terms too.
-/
import Idealize.ShloMosaic.PureOps.Ideal
import Idealize.ShloMosaic.Lib.ValueIdx
import proofs.«155345_j36412732736203_2_alg».proof.Proof.LibBlockSum

noncomputable section

namespace Cert.BinaryDense

open Idealize.ShloMosaic Idealize.ShloMosaic.ValueIdx
open scoped BigOperators

/-- One term of the contraction at output entry (p, q): activation k of token p times the sign of weight (q, k). -/
def term (x : FVec Ideal ⟨2, ![8192, 4096]⟩ .f32) (w : FVec Ideal ⟨2, ![4096, 4096]⟩ .f32)
    (p : Fin 8192) (q : Fin 4096) (k : Fin 4096) : EReal :=
  x (ix2 p k) * FloatOps.hostUnary (F := Ideal) .sign (w (ix2 q k))

/-- Entry (p, q) of the layer: the whole contraction, then the bias of output feature q. -/
def entry (x : FVec Ideal ⟨2, ![8192, 4096]⟩ .f32) (w : FVec Ideal ⟨2, ![4096, 4096]⟩ .f32)
    (b : FVec Ideal ⟨1, ![4096]⟩ .f32) (p : Fin 8192) (q : Fin 4096) : EReal :=
  (∑ k : Fin 4096, term x w p q k) + b (ix1 q)

/-- Four partial sums, each over one block of 1024 consecutive indices, added one after the other onto zero give the
    sum over all 4096 indices. -/
theorem sum_four_blocks {M : Type*} [AddCommMonoid M] (f : Fin 4096 → M) (T : ℕ → M)
    (hT : ∀ (s : ℕ) (hs : s < 4), T s = ∑ j : Fin 1024, f ⟨1024 * s + j.val, by have := j.isLt; omega⟩) :
    (0 + ∑ s ∈ Finset.range 3, T s) + T 3 = ∑ k, f k := by
  rw [zero_add, ← Finset.sum_range_succ, Finset.sum_range (n := 4) T]
  have hb := BlockSum.sum_by_blocks 4 1024 (fun k : Fin (4 * 1024) => f ⟨k.val, k.isLt⟩)
  refine Eq.trans ?_ hb.symm
  refine Finset.sum_congr rfl fun s _ => ?_
  rw [hT s.val s.isLt]
  refine Finset.sum_congr rfl fun j _ => ?_
  refine congrArg f (Fin.ext ?_)
  show 1024 * s.val + j.val = (finProdFinEquiv (s, j) : Fin (4 * 1024)).val
  rw [BlockSum.block_entry_val]
  omega

end Cert.BinaryDense

end
-- ==== Proof.RefEntry.lean ====
/-
  The reference program's result, entry by entry.

  The reference takes the sign of the weight matrix, contracts the activations with it along the input features
  (both operands on their second axis, that is, against the transpose), and adds the bias broadcast along the rows.
  Read at entry (p, q) this is the layer's entry: the contraction index of the product is the feature index k, the left
  operand is read at (p, k), the sign matrix at (q, k), and both broadcasts read the bias at q.
-/
import proofs.«155345_j36412732736203_2_alg».proof.Proof.Gen.ReferenceIdeal.Read
import proofs.«155345_j36412732736203_2_alg».proof.Proof.DenseLayer

noncomputable section

namespace Cert.BinaryDense

open Cert.ReferenceIdeal Cert.ReferenceIdeal.Gen Cert.ReferenceIdeal.Read
open Idealize.ShloMosaic Idealize.ShloMosaic.ValueIdx

/-- The reference's result at entry (p, q) is the layer's entry (p, q). -/
theorem reference_entry (x : FVec Ideal S8192x4096 .f32) (w : FVec Ideal S4096x4096 .f32) (b : FVec Ideal S4096 .f32)
    (p : Fin 8192) (q : Fin 4096) :
    val_main_v4 (F := Ideal) x w b (ix2 p q) = entry x w b p q := by
  have el : ∀ k : Fin 4096, lidx_main_v1 (ix2 p q) k = ix2 p k := fun k =>
    funext fun a => Fin.ext (by match a with | ⟨0, _⟩ => rfl | ⟨1, _⟩ => rfl)
  have er : ∀ k : Fin 4096, ridx_main_v1 (ix2 p q) k = ix2 q k := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  rw [val_main_v4_apply, val_main_v1_apply, val_main_v3_apply, val_main_v2_apply, eb]
  simp only [el, er, val_main_v0_apply]
  rfl

end Cert.BinaryDense

end
-- ==== Proof.LibMatmulNT.lean ====
/-
  A matrix product against a transposed right operand, read at an entry.

  At the exact instance a `tpu.matmul` into the zero accumulator is, at each output index, the sum over the dot's
  contraction index of the products of the operands at the indices the dimension numbers name. When an M × K matrix
  meets an N × K matrix and both contract their SECOND axis (the product `a · wᵀ`), the operand indices at output
  (y, j) and contraction coordinate k are (y, k) and (j, k), and the contraction index is its one coordinate; so the
  entry is `Σₖ a[y, k] · w[j, k]` over `Fin K`. The four coordinate facts are hypotheses: for a concrete record each is
  one line (two by the record's own single-axis lemmas, two by unfolding the index function at a decided membership).
-/
import Idealize.ShloMosaic.PureOps.Ideal.Laws
import Idealize.ShloMosaic.Lib.ValueIdx

noncomputable section

namespace Cert.MaskedDense.Lib

open Idealize.ShloMosaic Idealize.ShloMosaic.ValueIdx

/-- Entry (y, j) of an M × K by N × K product contracted along both second axes and accumulated into zero is
    `Σₖ a (y, k) · w (j, k)`, `k` over `Fin K`: the contraction index re-read as its one coordinate (`hr`, `hs`: one
    contracted axis of extent K), the operand indices by their coordinates (`hl0`, `hl1`, `hr0`, `hr1`). Only the
    re-indexing of a finite sum is used, so it holds with infinite entries too. -/
theorem matmul_nt_zero_ix2_apply {M K N : Nat} {φ₁ φ₂ : FTy}
    (d : DotDims ⟨2, ![M, K]⟩ ⟨2, ![N, K]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (prec : Option ContractPrecision) (a : FVec Ideal ⟨2, ![M, K]⟩ φ₁) (w : FVec Ideal ⟨2, ![N, K]⟩ φ₂)
    (y : Fin M) (j : Fin N) :
    FloatOps.matmul d prec a w (constant ⟨2, ![M, N]⟩ .f32 0x00000000#32) (ix2 y j)
      = ∑ k : Fin K, a (ix2 y k) * w (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 j k := funext fun c => Fin.ext (by
    match c with
    | ⟨0, _⟩ => exact hr0 _ _
    | ⟨1, _⟩ => exact (hr1 _ _).trans hk)
  rw [el, er]

end Cert.MaskedDense.Lib

end
-- ==== Proof.KernelBody.lean ====
/-
  What the kernel body computes at one grid point, entry by entry.

  At every point the body adds to the 2048 × 2048 accumulator tile the product of a 2048 × 1024 tile of activations
  with the TRANSPOSE of a 2048 × 1024 tile of the sign matrix (both contracted on their second axis), computed into
  a zero accumulator: entry (a, d) of the new tile is the old entry plus Σ_{k < 1024} xs[a, k] · ws[d, k]. (Rounding
  the activations to a narrower format changes nothing on the extended reals.) At the first point of a run the
  tile is the zero tile; at the last one the bias row is added to every row of the tile.
-/
import proofs.«155345_j36412732736203_2_alg».proof.Proof.Gen.KernelIdeal.Skeleton
import proofs.«155345_j36412732736203_2_alg».proof.Proof.LibMatmulNT
import Idealize.ShloMosaic.Lib.Pipeline.Value
import Idealize.ShloMosaic.Lib.ValueLayout

noncomputable section

namespace Cert.BinaryDense

open Cert.KernelIdeal Cert.KernelIdeal.Gen
open Idealize.ShloMosaic Idealize.ShloMosaic.ValueIdx

/-- The tile product of one point: activations (rounded, which is the identity here) against the transposed sign
    tile, into the zero accumulator. -/
def tileProduct (xs : FVec Ideal S2048x1024 .f32) (ws : FVec Ideal S2048x1024 .bf16) : FVec Ideal S2048x2048 .f32 :=
  matmul dot_S2048x1024_S2048x1024_S2048x2048_1_1_0_0_n_n none (truncf .bf16 xs bitsLt_bf16_f32) ws
    (constant S2048x2048 .f32 0x00000000#32)

/-- The accumulating store's value is the old tile plus the point's tile product. -/
theorem pay2_eq (xs : Vec Ideal S2048x1024 .f32) (ws : Vec Ideal S2048x1024 .bf16) (acc : Vec Ideal S2048x2048 .f32) :
    k0_pay2 xs ws acc = addf acc (tileProduct xs ws) := by
  unfold k0_pay2 tileProduct
  dsimp only
  rw [shapeCast_self, shapeCast_self]

theorem dot_l0 (i : S2048x2048.Idx) (q : dot_S2048x1024_S2048x1024_S2048x2048_1_1_0_0_n_n.contr.Idx) :
    (dot_S2048x1024_S2048x1024_S2048x2048_1_1_0_0_n_n.lhsIdx i q 0).val = (i 0).val := by
  unfold DotDims.lhsIdx
  rw [dif_neg (show ¬(0 : Fin S2048x1024.rank) ∈ dot_S2048x1024_S2048x1024_S2048x2048_1_1_0_0_n_n.lhsBatch by decide),
    dif_pos (show (0 : Fin S2048x1024.rank) ∈ dot_S2048x1024_S2048x1024_S2048x2048_1_1_0_0_n_n.lhsNonContracting by decide)]
  rfl

theorem dot_r0 (i : S2048x2048.Idx) (q : dot_S2048x1024_S2048x1024_S2048x2048_1_1_0_0_n_n.contr.Idx) :
    (dot_S2048x1024_S2048x1024_S2048x2048_1_1_0_0_n_n.rhsIdx i q 0).val = (i 1).val := by
  unfold DotDims.rhsIdx
  rw [dif_neg (show ¬(0 : Fin S2048x1024.rank) ∈ dot_S2048x1024_S2048x1024_S2048x2048_1_1_0_0_n_n.rhsBatch by decide),
    dif_pos (show (0 : Fin S2048x1024.rank) ∈ dot_S2048x1024_S2048x1024_S2048x2048_1_1_0_0_n_n.rhsNonContracting by decide)]
  rfl

/-- Entry (a, d) of the tile product: the contraction over the tile's 1024 features, the sign tile read
    transposed. -/
theorem tileProduct_apply (xs : FVec Ideal S2048x1024 .f32) (ws : FVec Ideal S2048x1024 .bf16) (a d : Fin 2048) :
    tileProduct xs ws (ix2 a d) = ∑ k : Fin 1024, xs (ix2 a k) * ws (ix2 d k) :=
  Cert.MaskedDense.Lib.matmul_nt_zero_ix2_apply dot_S2048x1024_S2048x1024_S2048x2048_1_1_0_0_n_n rfl rfl
    dot_l0
    (fun i q => dot_S2048x1024_S2048x1024_S2048x2048_1_1_0_0_n_n.lhsIdx_val_of_single rfl i q)
    dot_r0
    (fun i q => dot_S2048x1024_S2048x1024_S2048x2048_1_1_0_0_n_n.rhsIdx_val_of_single rfl i q)
    none (truncf .bf16 xs bitsLt_bf16_f32) ws a d

/-- The tile a run starts from is the zero tile. -/
theorem pay1_apply (y : S2048x2048.Idx) : k0_pay1 (F := Ideal) y = 0 := by
  unfold k0_pay1
  exact Ideal.ofBits_zero_f32

/-- The last store's value: the bias row added to every row of the tile. -/
theorem pay3_apply (acc : Vec Ideal S2048x2048 .f32) (bs : Vec Ideal S1x2048 .f32) (a d : Fin 2048) :
    k0_pay3 acc bs (ix2 a d) = acc (ix2 a d) + bs (ix2 (0 : Fin 1) d) := by
  unfold k0_pay3
  rw [shapeCast_self, shapeCast_self]
  exact congrArg (acc (ix2 a d) + ·) (broadcastTo_1b_ab_apply bs broadcasts_S1x2048_S2048x2048 a d)

end Cert.BinaryDense

end
-- ==== Proof.KernelTiles.lean ====
/-
  The tiles the kernel reads at a grid point, as entries of the argument arrays.

  The grid has 4 × 2 × 4 points in row-major order: point t works on row block t / 8 of the activations (2048 tokens),
  on column block (t / 4) mod 2 of the output (2048 output features), and on feature block t mod 4 (1024 input
  features). Before the grid runs the weight matrix is replaced by its sign (then rounded, the identity on the
  extended reals) and the bias is laid out as a one-row matrix. So at point t

    * the activation tile's entry (a, k) is x[2048·(t/8) + a, 1024·(t mod 4) + k],
    * the sign tile's entry (d, k) is sign(w[2048·((t/4) mod 2) + d, 1024·(t mod 4) + k]),
    * the bias tile's entry (0, d) is bias[2048·((t/4) mod 2) + d].
-/
import proofs.«155345_j36412732736203_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.BinaryDense

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Which block of its array each input window holds at point t (decided over the 32 points). -/
theorem tile_indices : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2 :=
  (by decide +kernel : ∀ t : Fin grid0.N, _)

/-- When the grid starts, the second operand's array holds the sign of the weight matrix. -/
theorem sign_array (c : Dev nD) :
    @Eq (FVec Ideal S4096x4096 .bf16) (V m c main_v1)
      (truncf .bf16 (Host.sign (m ((c : Thread nD τ).loc main_arg1) : FVec Ideal S4096x4096 .f32)) bitsLt_bf16_f32) := by
  dsimp only [Gen.V, Gen.hostOps0]; after_results

/-- When the grid starts, the third operand's array holds the bias as a one-row matrix. -/
theorem bias_array (c : Dev nD) :
    @Eq (FVec Ideal S1x4096 .f32) (V m c main_v2)
      (shapeCast S1x4096 (m ((c : Thread nD τ).loc main_arg2) : FVec Ideal S4096 .f32) shapeCasts_S4096_S1x4096) := by
  dsimp only [Gen.V, Gen.hostOps0]; after_results; rfl

/-- The activation tile of point t, entry (a, k). -/
theorem x_tile (c : Dev nD) (t : Fin cfg0.N) (a : Fin 2048) (k : Fin 1024) (p : Fin 8192) (f : Fin 4096)
    (hp : p.val = 2048 * (t.val / 8) + a.val) (hf : f.val = 1024 * (t.val % 4) + k.val) :
    (iblk m c 0 t : Vec Ideal S2048x1024 .f32) (ix2 a k) = m ((c : Thread nD τ).loc main_arg0) (ix2 p f) := by
  refine Eq.trans ?_ (congrFun (V_main_arg0 m c) (ix2 p f))
  show V m c main_arg0 (((cfg0.win 0).blk t).view.emb (ix2 a k)) = V m c main_arg0 (ix2 p f)
  obtain ⟨e0, e1, -⟩ := tile_indices t
  refine congrArg (V m c main_arg0) (funext fun ax => Fin.ext ?_)
  match ax with
  | ⟨0, _⟩ => show win0_0.index t (0 : Fin 2) * 2048 + 1 * a.val = p.val; omega
  | ⟨1, _⟩ => show win0_0.index t (1 : Fin 2) * 1024 + 1 * k.val = f.val; omega

/-- The sign tile of point t, entry (d, k). -/
theorem w_tile (c : Dev nD) (t : Fin cfg0.N) (d : Fin 2048) (k : Fin 1024) (q : Fin 4096) (f : Fin 4096)
    (hq : q.val = 2048 * (t.val / 4 % 2) + d.val) (hf : f.val = 1024 * (t.val % 4) + k.val) :
    (iblk m c 1 t : Vec Ideal S2048x1024 .bf16) (ix2 d k)
      = FloatOps.hostUnary (F := Ideal) (φ := .f32) .sign (m ((c : Thread nD τ).loc main_arg1) (ix2 q f)) := by
  have e : V m c main_v1 (((cfg0.win 1).blk t).view.emb (ix2 d k)) = V m c main_v1 (ix2 q f) := by
    obtain ⟨-, -, e0, e1, -⟩ := tile_indices t
    refine congrArg (V m c main_v1) (funext fun ax => Fin.ext ?_)
    match ax with
    | ⟨0, _⟩ => show win0_1.index t (0 : Fin 2) * 2048 + 1 * d.val = q.val; omega
    | ⟨1, _⟩ => show win0_1.index t (1 : Fin 2) * 1024 + 1 * k.val = f.val; omega
  refine Eq.trans e ?_
  rw [sign_array]
  rfl

/-- The bias tile of point t, entry (0, d). -/
theorem b_tile (c : Dev nD) (t : Fin cfg0.N) (d : Fin 2048) (q : Fin 4096)
    (hq : q.val = 2048 * (t.val / 4 % 2) + d.val) :
    (iblk m c 2 t : Vec Ideal S1x2048 .f32) (ix2 (0 : Fin 1) d) = m ((c : Thread nD τ).loc main_arg2) (ix1 q) := by
  have e : V m c main_v2 (((cfg0.win 2).blk t).view.emb (ix2 (0 : Fin 1) d)) = V m c main_v2 (ix2 (0 : Fin 1) q) := by
    obtain ⟨-, -, -, -, e0, e1⟩ := tile_indices t
    refine congrArg (V m c main_v2) (funext fun ax => Fin.ext ?_)
    match ax with
    | ⟨0, _⟩ => show win0_2.index t (0 : Fin 2) * 1 + 1 * 0 = 0; omega
    | ⟨1, _⟩ => show win0_2.index t (1 : Fin 2) * 2048 + 1 * d.val = q.val; omega
  refine Eq.trans e ?_
  rw [bias_array]
  exact shapeCast_a_1a_apply _ shapeCasts_S4096_S1x4096 (0 : Fin 1) q

end Cert.BinaryDense

end
-- ==== Proof.KernelRun.lean ====
/-
  The kernel's result, entry by entry.

  The 32 grid points fall into 8 runs of 4 consecutive points; a run keeps one 2048 × 2048 output tile in place while
  its four points walk through the four blocks of 1024 input features. The first point starts from the zero tile,
  every point adds its tile product, and the last point adds the bias row and the tile is written back. So output
  entry (p, q), which sits at place (p mod 2048, q mod 2048) of the tile of run 2·(p / 2048) + q / 2048, ends as

      (((0 + S₀) + S₁) + S₂) + S₃ + bias[q],   S_s = Σ_{j < 1024} x[p, 1024·s + j] · sign(w[q, 1024·s + j]),

  which is the layer's entry: the four partial sums are the contraction over all 4096 features, block by block.
-/
import proofs.«155345_j36412732736203_2_alg».proof.Proof.Gen.KernelIdeal.Value
import proofs.«155345_j36412732736203_2_alg».proof.Proof.DenseLayer
import proofs.«155345_j36412732736203_2_alg».proof.Proof.KernelBody
import proofs.«155345_j36412732736203_2_alg».proof.Proof.KernelTiles

noncomputable section

namespace Cert.BinaryDense

open Cert.KernelIdeal Cert.KernelIdeal.Gen Cert.KernelIdeal.Value
open Idealize.ShloMosaic Idealize.ShloMosaic.TcCoe Idealize.ShloMosaic.ValueIdx Idealize.SL.Sem

variable (m : (ℓ : Loc nD τ sig) → Buf (Elt Ideal) ℓ)

/-- What point n adds to the output tile: its tile product (zero past the grid, where it is never read). -/
def addend (c : Dev nD) (n : ℕ) : S2048x2048.Idx → EReal := fun y =>
  if h : n < cfg0.N then tileProduct (iblk m c 0 ⟨n, h⟩) (iblk m c 1 ⟨n, h⟩) y else 0

/-- A run's first point leaves the zero tile plus its tile product. -/
theorem reset_eq (c : Dev nD) (n : ℕ) (h : n < cfg0.N) (y : S2048x2048.Idx) :
    reset3 m c n h y = k0_pay1 (F := Ideal) y + addend m c n y := by
  unfold reset3 addend
  rw [dif_pos h, pay2_eq]
  rfl

/-- A middle point of a run adds its tile product to what the point before left. -/
theorem step_mid (c : Dev nD) (n : ℕ) (h : n < cfg0.N) (h0 : ¬n % 4 = 0) (h3 : ¬n % 4 = 3)
    (acc : Vec Ideal S2048x2048 .f32) (y : S2048x2048.Idx) :
    step3 m c n h acc y = acc y + addend m c n y := by
  unfold step3 addend
  rw [if_pos ⟨h0, h3⟩, dif_pos h, pay2_eq]
  rfl

/-- A run's last point adds its tile product and then the bias row. -/
theorem step_last (c : Dev nD) (n : ℕ) (h : n < cfg0.N) (h0 : ¬n % 4 = 0) (h3 : n % 4 = 3)
    (acc : Vec Ideal S2048x2048 .f32) (a d : Fin 2048) :
    step3 m c n h acc (ix2 a d)
      = (acc (ix2 a d) + addend m c n (ix2 a d)) + (iblk m c 2 ⟨n, h⟩ : Vec Ideal S1x2048 .f32) (ix2 (0 : Fin 1) d) := by
  unfold step3 addend
  rw [if_neg (fun h' => h'.2 h3), if_pos ⟨h0, h3⟩, dif_pos h, pay3_apply, pay2_eq]
  rfl

/-- Point n's addend at place (a, d) of the tile: the partial sum over feature block n mod 4 of the terms of output
    entry (p, q), the entry that place holds. -/
theorem addend_apply (c : Dev nD) (n : ℕ) (h : n < cfg0.N) (a d : Fin 2048) (p : Fin 8192) (q : Fin 4096)
    (hp : p.val = 2048 * (n / 8) + a.val) (hq : q.val = 2048 * (n / 4 % 2) + d.val) :
    addend m c n (ix2 a d)
      = ∑ j : Fin 1024, term (m ((c : Thread nD τ).loc main_arg0)) (m ((c : Thread nD τ).loc main_arg1)) p q
          ⟨1024 * (n % 4) + j.val, by have := j.isLt; omega⟩ := by
  unfold addend
  rw [dif_pos h, tileProduct_apply]
  refine Finset.sum_congr rfl fun j _ => ?_
  unfold term
  rw [x_tile m c ⟨n, h⟩ a j p ⟨1024 * (n % 4) + j.val, by have := j.isLt; omega⟩ hp rfl,
    w_tile m c ⟨n, h⟩ d j q ⟨1024 * (n % 4) + j.val, by have := j.isLt; omega⟩ hq rfl]

/-- A whole run, started at point b, at place (a, d) of its tile: the layer's entry (p, q). -/
theorem run_entry (c : Dev nD) (b : ℕ) (hb : b % 4 = 0) (h : b + 3 < cfg0.N) (a d : Fin 2048)
    (p : Fin 8192) (q : Fin 4096) (hp : p.val = 2048 * (b / 8) + a.val) (hq : q.val = 2048 * (b / 4 % 2) + d.val) :
    Pipeline.accAt (reset3 m c) (step3 m c) b 3 h (ix2 a d)
      = entry (m ((c : Thread nD τ).loc main_arg0)) (m ((c : Thread nD τ).loc main_arg1))
          (m ((c : Thread nD τ).loc main_arg2)) p q := by
  have hN : cfg0.N = 32 := N_0
  rw [Pipeline.accAt_succ, step_last m c _ h (by omega) (by omega)]
  rw [Pipeline.accAt_add_apply (reset3 m c) (step3 m c) (k0_pay1 (F := Ideal)) (addend m c) b 2
    (fun h' y => reset_eq m c b h' y)
    (fun n h' acc y h1 h2 => step_mid m c n h' (by omega) (by omega) acc y) 2 le_rfl _ (ix2 a d)]
  rw [pay1_apply, b_tile m c ⟨b + (2 + 1), h⟩ d q (by show q.val = 2048 * ((b + (2 + 1)) / 4 % 2) + d.val; omega)]
  unfold entry
  refine congrArg (· + m ((c : Thread nD τ).loc main_arg2) (ix1 q)) ?_
  exact sum_four_blocks _ (fun s => addend m c (b + s) (ix2 a d)) (fun s hs => by
    rw [addend_apply m c (b + s) (by omega) a d p q (by omega) (by omega)]
    refine Finset.sum_congr rfl fun j _ => congrArg _ (Fin.ext ?_)
    show 1024 * ((b + s) % 4) + j.val = 1024 * s + j.val
    omega)

/-- The array the kernel leaves, at entry (p, q): the layer's entry. -/
theorem kernel_entry (c : Dev nD) (p : Fin 8192) (q : Fin 4096) :
    G3 m c (ix2 p q)
      = entry (m ((c : Thread nD τ).loc main_arg0)) (m ((c : Thread nD τ).loc main_arg1))
          (m ((c : Thread nD τ).loc main_arg2)) p q := by
  have hp := p.isLt
  have hq := q.isLt
  have hN : cfg0.N = 32 := N_0
  have hr : run3Of (ix2 p q) = 2 * (p.val / 2048) + q.val / 2048 := by
    show 2 * (p.val / 2048 - 0) + 1 * (q.val / 2048 - 0) = _
    omega
  have hlt : 4 * run3Of (ix2 p q) + 3 < cfg0.N := by rw [hr, hN]; omega
  have hl : loc3Of (ix2 p q)
      = ix2 (⟨p.val % 2048, Nat.mod_lt _ (by decide)⟩ : Fin 2048) (⟨q.val % 2048, Nat.mod_lt _ (by decide)⟩ : Fin 2048) :=
    funext fun ax => by match ax with | ⟨0, _⟩ => rfl | ⟨1, _⟩ => rfl
  unfold G3
  rw [dif_pos hlt, hl]
  exact run_entry m c (4 * run3Of (ix2 p q)) (by omega) hlt _ _ p q
    (by rw [hr]; show p.val = 2048 * (4 * (2 * (p.val / 2048) + q.val / 2048) / 8) + p.val % 2048; omega)
    (by rw [hr]; show q.val = 2048 * (4 * (2 * (p.val / 2048) + q.val / 2048) / 4 % 2) + q.val % 2048; omega)

end Cert.BinaryDense

end
-- ==== Proof.lean ====
/-
  A dense layer with binarised weights: y = x · sign(w)ᵀ + bias, for 8192 tokens, 4096 input and 4096 output
  features.

  The kernel first replaces the weight matrix by its sign, then walks a 4 × 2 × 4 grid: for each 2048 × 2048 output
  tile it accumulates, over four blocks of 1024 input features, the product of an activation tile with the transposed
  sign tile, starting from zero and adding the bias row at the last block. The reference contracts over all 4096
  features at once and adds the bias. On the extended reals (where rounding to a narrower format is the identity) both
  give, at entry (p, q),

      (Σ_{k < 4096} x[p, k] · sign(w[q, k])) + bias[q]:

  the kernel's four partial sums added one after the other onto zero are the whole sum, because addition of extended
  reals is commutative and associative; no cancellation or distributivity is used, so the inputs' finiteness is never
  needed. The two results are compared entry by entry (the reference's in RefEntry, the kernel's in KernelRun); the three
  frames are the generated runs with the results dropped, and the kernel's idealisation rewrote nothing.
-/
import proofs.«155345_j36412732736203_2_alg».proof.Defs
import proofs.«155345_j36412732736203_2_alg».proof.Proof.Gen.Kernel.Frame
import proofs.«155345_j36412732736203_2_alg».proof.Proof.Gen.KernelIdeal.Value
import proofs.«155345_j36412732736203_2_alg».proof.Proof.Gen.Pre_finite_inputs
import proofs.«155345_j36412732736203_2_alg».proof.Proof.Gen.ReferenceIdeal.Run
import proofs.«155345_j36412732736203_2_alg».proof.Proof.RefEntry
import proofs.«155345_j36412732736203_2_alg».proof.Proof.KernelRun
import Idealize.ShloMosaic.Adequacy
import Idealize.ShloMosaic.Init

noncomputable section

namespace Cert.Proof

open Idealize.ShloMosaic Idealize.ShloMosaic.ValueIdx Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with the same array: at every entry (p, q) each holds the layer's entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2, Cert.ReferenceIdeal.Read.val_main_v4_eq]
  funext i
  obtain ⟨p, q, rfl⟩ : ∃ (p : Fin 8192) (q : Fin 4096), i = ix2 p q := ⟨i 0, i 1, eq_ix2 i⟩
  rw [Cert.BinaryDense.reference_entry, Cert.BinaryDense.kernel_entry]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
